-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x128x128 : Shape := ⟨4, ![64, 256, 128, 128]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S64x256x128x128 : S_.BroadcastsInDim S64x256x128x128 (![] : Fin 0 → Fin S64x256x128x128.rank)
  reducesTo_S64x256x128x128_S_d0_1_2_3 : S64x256x128x128.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S256 .f32) (main_arg5 : FVec F S512x256 .f32) (main_arg6 : FVec F S512 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S64x256x128x128 .f32) (main_arg1 : FVec F S256 .f32) (main_arg2 : FVec F S256 .f32) (main_arg3 : FVec F S256 .f32) (main_arg4 : FVec F S256 .f32) (main_arg5 : FVec F S512x256 .f32) (main_arg6 : FVec F S512 .f32) : IVec S_ 1 :=
  let main_v0 : FVec F S64x256x128x128 .f32 := Host.absf main_arg0
  let main_cst : FVec F S_ .f32 := constant S_ .f32 0x7F800000#32
  let main_v1 : FVec F S64x256x128x128 .f32 := broadcastInDim S64x256x128x128 ![] bcast_S_S64x256x128x128 main_cst
  let main_v2 : IVec S64x256x128x128 1 := cmpf .olt main_v0 main_v1
  let main_c : IVec S_ 1 := constantI S_ 1 1#1
  let main_v3 : IVec S_ 1 := (fun x v => Host.reduce IntOp.andi x v reducesTo_S64x256x128x128_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S64x256x128x128 : Shape := ⟨4, ![64, 256, 128, 128]⟩
abbrev S256 : Shape := ⟨1, ![256]⟩
abbrev S512x256 : Shape := ⟨2, ![512, 256]⟩
abbrev S512 : Shape := ⟨1, ![512]⟩
abbrev S_ : Shape := ⟨0, ![]⟩
abbrev S1x256x1x1 : Shape := ⟨4, ![1, 256, 1, 1]⟩
abbrev S64x256 : Shape := ⟨2, ![64, 256]⟩
abbrev S8x256x8x128 : Shape := ⟨4, ![8, 256, 8, 128]⟩
abbrev S8x256 : Shape := ⟨2, ![8, 256]⟩
abbrev S8x256x8 : Shape := ⟨3, ![8, 256, 8]⟩
abbrev S64x512 : Shape := ⟨2, ![64, 512]⟩
abbrev S1x512 : Shape := ⟨2, ![1, 512]⟩

abbrev nBuf : Space → Nat
  | .hbm => 30
  | .vmem => 7
  | .smem => 0
  | _ => 0

abbrev bufTy : (tb : Table) → Fin (tcTables nBuf tb) → BufTy
  | .hbm, ⟨0, _⟩ => ⟨S64x256x128x128, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S512x256, .f32⟩
  | .hbm, ⟨6, _⟩ => ⟨S512, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S1x256x1x1, .f32⟩
  | .hbm, ⟨16, _⟩ => ⟨S1x256x1x1, .f32⟩
  | .hbm, ⟨17, _⟩ => ⟨S64x256, .f32⟩
  | .hbm, ⟨18, _⟩ => ⟨S64x512, .f32⟩
  | .hbm, ⟨19, _⟩ => ⟨S1x512, .f32⟩
  | .hbm, ⟨20, _⟩ => ⟨S64x512, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S_, .f32⟩
  | .hbm, ⟨28, _⟩ => ⟨S64x512, .f32⟩
  | .hbm, ⟨29, _⟩ => ⟨S64x512, .f32⟩
  | .local _ .vmem, ⟨0, _⟩ => ⟨S8x256x8x128, .f32⟩
  | .local _ .vmem, ⟨1, _⟩ => ⟨S8x256x8x128, .f32⟩
  | .local _ .vmem, ⟨2, _⟩ => ⟨S1x256x1x1, .f32⟩
  | .local _ .vmem, ⟨3, _⟩ => ⟨S1x256x1x1, .f32⟩
  | .local _ .vmem, ⟨4, _⟩ => ⟨S8x256, .f32⟩
  | .local _ .vmem, ⟨5, _⟩ => ⟨S8x256, .f32⟩
  | .local _ .vmem, ⟨6, _⟩ => ⟨S8x256, .f32⟩
  | _, _ => ⟨S64x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_18 : BitVec 32 := 0#32
  let v23 : BitVec 1 := Scalar.cmpi .ne v22 c0_i32_18
  v23

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x256x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S256 : S_.BroadcastsInDim S256 (![] : Fin 0 → Fin S256.rank)
  shapeCasts_S256_S1x256x1x1 : S256.ShapeCasts S1x256x1x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x8x128_S8x256x8x128_0_0_0_0 : ∀ a, (![0, 0, 0, 0] : Fin 4 → Nat) a + S8x256x8x128.size a ≤ S8x256x8x128.size a
  h_S8x256x8x128 : 0 < S8x256x8x128.numel
  inb_S1x256x1x1_S1x256x1x1_0_0_0_0 : ∀ a, (![0, 0, 0, 0] : Fin 4 → Nat) a + S1x256x1x1.size a ≤ S1x256x1x1.size a
  h_S1x256x1x1 : 0 < S1x256x1x1.numel
  shapeCasts_S1x256x1x1_S1x256x1x1 : S1x256x1x1.ShapeCasts S1x256x1x1
  broadcasts_S1x256x1x1_S8x256x8x128 : S1x256x1x1.Broadcasts S8x256x8x128
  reduces_S8x256x8x128_S8x256x8 : S8x256x8x128.Reduces [3] S8x256x8
  reduces_S8x256x8_S8x256 : S8x256x8.Reduces [2] S8x256
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  dot_S64x256_S512x256_S64x512_1_1_0_0_n_n_wf : DotDims.WF S64x256 S512x256 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x8x128.size a ≤ S64x256x128x128.size a
  hwx0_0 : ∀ i : grid0.Coords, EltTy.bits .f32 = 32 ∨ (Rect.block (s := S64x256x128x128) S8x256x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1x1.size a ≤ S1x256x1x1.size a
  hwx0_1 : ∀ i : grid0.Coords, EltTy.bits .f32 = 32 ∨ (Rect.block (s := S1x256x1x1) S1x256x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1x1.size a ≤ S1x256x1x1.size a
  hwx0_2 : ∀ i : grid0.Coords, EltTy.bits .f32 = 32 ∨ (Rect.block (s := S1x256x1x1) S1x256x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S64x256.size a
  hwx0_3 : ∀ i : grid0.Coords, EltTy.bits .f32 = 32 ∨ (Rect.block (s := S64x256) S8x256.size (cc0_transform_3 i) (hinb0_3 i)).WholeWords (EltTy.packing .f32)

variable [Facts₀]

def dot_S64x256_S512x256_S64x512_1_1_0_0_n_n : DotDims S64x256 S512x256 S64x512 where
  lhsContracting := [1]
  rhsContracting := [1]
  lhsNonContracting := [0]
  rhsNonContracting := [0]
  lhsBatch := []
  rhsBatch := []
  wf := dot_S64x256_S512x256_S64x512_1_1_0_0_n_n_wf

abbrev win0_0 : Pipeline.Window sig grid0 :=
  Pipeline.Window.ofSpec (Memref.whole main_arg0) S8x256x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x256x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x256x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x256x128x128 : Shape := ⟨4, ![64, 256, 128, 128]⟩
abbrev S256 : Shape := ⟨1, ![256]⟩
abbrev S512x256 : Shape := ⟨2, ![512, 256]⟩
abbrev S512 : Shape := ⟨1, ![512]⟩
abbrev S_ : Shape := ⟨0, ![]⟩
abbrev S1x256x1x1 : Shape := ⟨4, ![1, 256, 1, 1]⟩
abbrev S64x256 : Shape := ⟨2, ![64, 256]⟩
abbrev S64x512 : Shape := ⟨2, ![64, 512]⟩
abbrev S1x512 : Shape := ⟨2, ![1, 512]⟩

abbrev nBuf : Space → Nat
  | .hbm => 41
  | .vmem => 0
  | .smem => 0
  | _ => 0

abbrev bufTy : (tb : Table) → Fin (tcTables nBuf tb) → BufTy
  | .hbm, ⟨0, _⟩ => ⟨S64x256x128x128, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S512x256, .f32⟩
  | .hbm, ⟨6, _⟩ => ⟨S512, .f32⟩
  | .hbm, ⟨7, _⟩ => ⟨S_, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S1x256x1x1, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S1x256x1x1, .f32⟩
  | .hbm, ⟨17, _⟩ => ⟨S64x256x128x128, .f32⟩
  | .hbm, ⟨18, _⟩ => ⟨S64x256x128x128, .f32⟩
  | .hbm, ⟨19, _⟩ => ⟨S64x256x128x128, .f32⟩
  | .hbm, ⟨20, _⟩ => ⟨S64x256x128x128, .f32⟩
  | .hbm, ⟨21, _⟩ => ⟨S_, .f32⟩
  | .hbm, ⟨22, _⟩ => ⟨S64x256x128x128, .f32⟩
  | .hbm, ⟨23, _⟩ => ⟨S64x256x128x128, .f32⟩
  | .hbm, ⟨24, _⟩ => ⟨S_, .f32⟩
  | .hbm, ⟨25, _⟩ => ⟨S64x256, .f32⟩
  | .hbm, ⟨26, _⟩ => ⟨S_, .f32⟩
  | .hbm, ⟨27, _⟩ => ⟨S64x256, .f32⟩
  | .hbm, ⟨28, _⟩ => ⟨S64x256, .f32⟩
  | .hbm, ⟨29, _⟩ => ⟨S64x512, .f32⟩
  | .hbm, ⟨30, _⟩ => ⟨S1x512, .f32⟩
  | .hbm, ⟨31, _⟩ => ⟨S64x512, .f32⟩
  | .hbm, ⟨32, _⟩ => ⟨S64x512, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S_, .f32⟩
  | .hbm, ⟨39, _⟩ => ⟨S64x512, .f32⟩
  | .hbm, ⟨40, _⟩ => ⟨S64x512, .f32⟩
  | _, _ => ⟨S64x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S64x256x128x128_0_1_2_3 : S1x256x1x1.BroadcastsInDim S64x256x128x128 (![0, 1, 2, 3] : Fin 4 → Fin S64x256x128x128.rank)
  bcast_S_S64x256x128x128 : S_.BroadcastsInDim S64x256x128x128 (![] : Fin 0 → Fin S64x256x128x128.rank)
  reducesTo_S64x256x128x128_S64x256_d2_3 : S64x256x128x128.ReducesTo [2, 3] S64x256
  h_S_ : 0 < S_.numel
  bcast_S_S64x256 : S_.BroadcastsInDim S64x256 (![] : Fin 0 → Fin S64x256.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  dot_S64x256_S512x256_S64x512_1_1_0_0_n_n_wf : DotDims.WF S64x256 S512x256 S64x512 [1] [1] [0] [0] [] []

variable [Facts₀]

def dot_S64x256_S512x256_S64x512_1_1_0_0_n_n : DotDims S64x256 S512x256 S64x512 where
  lhsContracting := [1]
  rhsContracting := [1]
  lhsNonContracting := [0]
  rhsNonContracting := [0]
  lhsBatch := []
  rhsBatch := []
  wf := dot_S64x256_S512x256_S64x512_1_1_0_0_n_n_wf

class Facts : Prop extends Facts₀ where

variable [Facts]
-- ==== Proof.Pieces.lean ====
/-
  What one grid point leaves behind, case by case.

  The body keeps a running [8, 256] table of partial sums in its scratch buffer. At the first of the sixteen
  row-tiles of a batch block it clears the table and adds the tile's sums (case A); at every later tile it adds
  the tile's sums to what the tile before left (cases B and C); at the last tile (case C) it also writes the
  table, scaled, into the output block. Each case ends with ONE store over the whole scratch buffer, so what
  the scratch holds afterwards is that store's payload: the accumulating payload `k0_pay2` of the three input
  blocks and of the table it read — the cleared table `k0_pay1` in case A, the previous table in cases B, C —
  and what case C leaves in the output block is the scaling payload `k0_pay3` of that new table.
-/
import proofs.«174536_j41266045780624_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A first tile: the table is cleared, read back, and the tile's sums added to it. -/
theorem sout_A (c : Dev nD) (i : grid0.Coords) (arg2 : Memref sig .tc .vmem S8x256x8x128 .f32) (harg2 : arg2.IsWhole) (arg3 : Memref sig .tc .vmem S1x256x1x1 .f32) (harg3 : arg3.IsWhole) (arg4 : Memref sig .tc .vmem S1x256x1x1 .f32) (harg4 : arg4.IsWhole) (arg5 : Memref sig .tc .vmem S8x256 .f32) (harg5 : arg5.IsWhole) (arg6 : Memref sig .tc .vmem S8x256 .f32) (harg6 : arg6.IsWhole) (hc0 : cond0_0 i) (hc1 : ¬cond0_1 i)
    (x0 : Vec F S8x256x8x128 .f32) (x1 : Vec F S1x256x1x1 .f32) (x2 : Vec F S1x256x1x1 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x256) hz2, View.readCov_unit_zero (S := S8x256) _ hz2]
  simp only [View.readAt_eq_ld, harg2.read_unread, harg3.read_unread, harg4.read_unread, harg5.read_unread, harg6.read_unread, View.ld_unit_zero (S := S8x256x8x128) hz4, View.ld_unit_zero (S := S1x256x1x1) hz4, View.ld_unit_zero (S := S8x256) hz2]

/-- A middle tile: the tile's sums are added to the table the tile before left. -/
theorem sout_B (c : Dev nD) (i : grid0.Coords) (arg2 : Memref sig .tc .vmem S8x256x8x128 .f32) (harg2 : arg2.IsWhole) (arg3 : Memref sig .tc .vmem S1x256x1x1 .f32) (harg3 : arg3.IsWhole) (arg4 : Memref sig .tc .vmem S1x256x1x1 .f32) (harg4 : arg4.IsWhole) (arg5 : Memref sig .tc .vmem S8x256 .f32) (harg5 : arg5.IsWhole) (arg6 : Memref sig .tc .vmem S8x256 .f32) (harg6 : arg6.IsWhole) (hc0 : ¬cond0_0 i) (hc1 : ¬cond0_1 i)
    (x0 : Vec F S8x256x8x128 .f32) (x1 : Vec F S1x256x1x1 .f32) (x2 : Vec F S1x256x1x1 .f32) (xs0 : Vec F S8x256 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg4.read_unread, harg5.read_unread, harg6.read_unread, View.ld_unit_zero (S := S8x256x8x128) hz4, View.ld_unit_zero (S := S1x256x1x1) hz4, View.ld_unit_zero (S := S8x256) hz2]

/-- A last tile leaves the same in the table … -/
theorem sout_C (c : Dev nD) (i : grid0.Coords) (arg2 : Memref sig .tc .vmem S8x256x8x128 .f32) (harg2 : arg2.IsWhole) (arg3 : Memref sig .tc .vmem S1x256x1x1 .f32) (harg3 : arg3.IsWhole) (arg4 : Memref sig .tc .vmem S1x256x1x1 .f32) (harg4 : arg4.IsWhole) (arg5 : Memref sig .tc .vmem S8x256 .f32) (harg5 : arg5.IsWhole) (arg6 : Memref sig .tc .vmem S8x256 .f32) (harg6 : arg6.IsWhole) (hc0 : ¬cond0_0 i) (hc1 : cond0_1 i)
    (x0 : Vec F S8x256x8x128 .f32) (x1 : Vec F S1x256x1x1 .f32) (x2 : Vec F S1x256x1x1 .f32) (xs0 : Vec F S8x256 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg5.read_unread, harg6.read_unread, View.ld_unit_zero (S := S8x256x8x128) hz4, View.ld_unit_zero (S := S1x256x1x1) hz4, View.ld_unit_zero (S := S8x256) hz2]

/-- … and the scaled table in the output block. -/
theorem out_C (c : Dev nD) (i : grid0.Coords) (arg2 : Memref sig .tc .vmem S8x256x8x128 .f32) (harg2 : arg2.IsWhole) (arg3 : Memref sig .tc .vmem S1x256x1x1 .f32) (harg3 : arg3.IsWhole) (arg4 : Memref sig .tc .vmem S1x256x1x1 .f32) (harg4 : arg4.IsWhole) (arg5 : Memref sig .tc .vmem S8x256 .f32) (harg5 : arg5.IsWhole) (arg6 : Memref sig .tc .vmem S8x256 .f32) (harg6 : arg6.IsWhole) (hc0 : ¬cond0_0 i) (hc1 : cond0_1 i)
    (x0 : Vec F S8x256x8x128 .f32) (x1 : Vec F S1x256x1x1 .f32) (x2 : Vec F S1x256x1x1 .f32) (xs0 : Vec F S8x256 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S8x256) _ hz2]
  simp only [View.readAt_eq_ld, harg2.read_unread, harg3.read_unread, harg4.read_unread, harg5.read_unread, harg6.read_unread, View.ld_unit_zero (S := S8x256x8x128) hz4, View.ld_unit_zero (S := S1x256x1x1) hz4, View.ld_unit_zero (S := S8x256) hz2]

end Cert.KernelIdeal.Pieces

end
-- ==== Proof.LibPoolSum.lean ====
/-
  Sums over the two trailing axes of a rank-four array, generic in the four extents.

  * `hostReduceAdd_last2`: the host's sum over axes 2 and 3 of an `[a, b, c, d]` array of extended reals, read at
    `(p, q)` of the `[a, b]` result, is the initial value plus the double sum over `r < c` and `w < d` of the
    entries `(p, q, r, w)` — the indices that drop to `(p, q)` are exactly those, one for each pair `(r, w)`.
  * `sum_blocks`: a sum over `Fin n` with `n = A * B` is the sum over the `A` blocks of `B` consecutive indices,
    block `h` holding the indices `B * h + r`, in any commutative monoid.
-/
import Idealize.ShloMosaic.PureOps.Ideal
import Idealize.ShloMosaic.PureOps.Ideal.Laws
import Idealize.ShloMosaic.Lib.ValueIdx

noncomputable section

namespace Cert.PoolSum

open Idealize.ShloMosaic Idealize.ShloMosaic.ValueIdx

section Last2

variable {a b c d : Nat}

/-- Dropping axes 2 and 3 of `(p, q, r, w)` leaves `(p, q)`. -/
theorem drop_ix4 (h : (⟨4, ![a, b, c, d]⟩ : Shape).ReducesTo [2, 3] ⟨2, ![a, b]⟩) (p : Fin a) (q : Fin b) (r : Fin c)
    (w : Fin d) : h.drop (ix4 p q r w) = ix2 p q := by
  funext k
  match k with
  | ⟨0, _⟩ => rfl
  | ⟨1, _⟩ => rfl

/-- An index that drops to `j` is `j`'s two coordinates followed by its own last two. -/
theorem eq_ix4_of_drop (h : (⟨4, ![a, b, c, d]⟩ : Shape).ReducesTo [2, 3] ⟨2, ![a, b]⟩)
    (i : (⟨4, ![a, b, c, d]⟩ : Shape).Idx) (j : (⟨2, ![a, b]⟩ : Shape).Idx) (hd : h.drop i = j) :
    i = ix4 (j 0) (j 1) (i 2) (i 3) := by
  subst hd
  funext k
  match k with
  | ⟨0, _⟩ => rfl
  | ⟨1, _⟩ => rfl
  | ⟨2, _⟩ => rfl
  | ⟨3, _⟩ => rfl

/-- The pairs `(r, w)` as the indices over `j`. -/
def tailEmb (j : (⟨2, ![a, b]⟩ : Shape).Idx) : Fin c × Fin d ↪ (⟨4, ![a, b, c, d]⟩ : Shape).Idx :=
  ⟨fun x => ix4 (j 0) (j 1) x.1 x.2, fun x y hxy =>
    Prod.ext (by have := congrFun hxy 2; exact this) (by have := congrFun hxy 3; exact this)⟩

/-- The indices the sum at `j` ranges over are the images of the pairs. -/
theorem filter_drop_last2 (h : (⟨4, ![a, b, c, d]⟩ : Shape).ReducesTo [2, 3] ⟨2, ![a, b]⟩)
    (j : (⟨2, ![a, b]⟩ : Shape).Idx) :
    Finset.univ.filter (fun i : (⟨4, ![a, b, c, d]⟩ : Shape).Idx => h.drop i = j) = Finset.univ.map (tailEmb j) := by
  ext i
  simp only [Finset.mem_filter, Finset.mem_univ, true_and, Finset.mem_map, tailEmb, Function.Embedding.coeFn_mk]
  constructor
  · intro hd
    exact ⟨(i 2, i 3), (eq_ix4_of_drop h i j hd).symm⟩
  · rintro ⟨⟨r, w⟩, rfl⟩
    exact (drop_ix4 h (j 0) (j 1) r w).trans (eq_ix2 j).symm

/-- The host's sum over the two trailing axes, read at an entry. -/
theorem hostReduceAdd_last2 (h : (⟨4, ![a, b, c, d]⟩ : Shape).ReducesTo [2, 3] ⟨2, ![a, b]⟩)
    (x : (⟨4, ![a, b, c, d]⟩ : Shape).Idx → EReal) (init : EReal) (j : (⟨2, ![a, b]⟩ : Shape).Idx) :
    Ideal.hostReduceAdd h x init j = init + ∑ r : Fin c, ∑ w : Fin d, x (ix4 (j 0) (j 1) r w) := by
  unfold Ideal.hostReduceAdd
  rw [filter_drop_last2, Finset.sum_map, Fintype.sum_prod_type]
  rfl

end Last2

section Blocks

/-- Index `r` of block `h` is below `A * B`. -/
theorem blockIdx_lt {A B : Nat} (h : Fin A) (r : Fin B) : B * h.val + r.val < A * B := by
  have h1 : h.val + 1 ≤ A := h.isLt
  have h2 : B * (h.val + 1) ≤ B * A := Nat.mul_le_mul_left B h1
  have hr := r.isLt
  rw [Nat.mul_succ] at h2
  rw [Nat.mul_comm A B]
  omega

/-- A sum over `Fin n`, `n = A * B`, block by block. -/
theorem sum_blocks {M : Type*} [AddCommMonoid M] {n : Nat} (A B : Nat) (hn : A * B = n) (f : Fin n → M) :
    ∑ i : Fin n, f i = ∑ h : Fin A, ∑ r : Fin B, f ⟨B * h.val + r.val, hn ▸ blockIdx_lt h r⟩ := by
  subst hn
  rw [← Equiv.sum_comp finProdFinEquiv f, Fintype.sum_prod_type]
  refine Finset.sum_congr rfl fun h _ => Finset.sum_congr rfl fun r _ => congrArg f (Fin.ext ?_)
  show r.val + B * h.val = B * h.val + r.val
  omega

end Blocks

end Cert.PoolSum

end
-- ==== Proof.Consts.lean ====
/-
  The two float words of the average: `0x46800000` is the real 16384 = 128 · 128, the number of entries of one
  channel plane, and `0x38800000` is its reciprocal 2⁻¹⁴, exactly. Dividing any extended real by the first is
  multiplying it by the second.
-/
import Idealize.ShloMosaic.PureOps.Ideal

noncomputable section

namespace Cert.PoolConsts

open Idealize.ShloMosaic

/-- `16384.0` denotes the real `16384`. -/
theorem ofBits_16384 : Ideal.ofBits .f32 0x46800000#32 = ((16384 : ℝ) : EReal) := by
  simp [Ideal.ofBits, Ideal.ieee, -EReal.coe_mul]; norm_num

/-- `6.103515625e-05` denotes the real `1 / 16384`. -/
theorem ofBits_inv16384 : Ideal.ofBits .f32 0x38800000#32 = ((1 / 16384 : ℝ) : EReal) := by
  simp [Ideal.ofBits, Ideal.ieee, -EReal.coe_mul]; norm_num

/-- The quotient by `16384.0` is the product with `2⁻¹⁴`, on every extended real. -/
theorem div_16384 (x : EReal) :
    Ideal.div x (Ideal.ofBits .f32 0x46800000#32) = x * Ideal.ofBits .f32 0x38800000#32 := by
  rw [ofBits_16384, ofBits_inv16384, Ideal.div_coe (by norm_num : (16384 : ℝ) ≠ 0)]

end Cert.PoolConsts

end
-- ==== Proof.Spec.lean ====
/-
  The pooled average, as one function of the arguments on the extended reals.

  For batch row `b` and channel `q` the result is the average over the 128 × 128 plane of
  max (x · s + h, 0), where `s` is the channel's multiplier g · rsqrt (v + ε) and `h` its offset
  β − s · μ: the plane's sum times the word 2⁻¹⁴. The plane's sum is also the sum of its sixteen 8-row tiles, in any
  grouping, since addition of extended reals is commutative and associative (no finiteness is needed).
-/
import proofs.«174536_j41266045780624_1_alg».proof.Proof.LibPoolSum
import proofs.«174536_j41266045780624_1_alg».proof.Proof.Consts
import Idealize.ShloMosaic.PureOps.Ideal
import Idealize.ShloMosaic.Lib.ValueIdx

noncomputable section

open Idealize.ShloMosaic Idealize.ShloMosaic.ValueIdx

namespace Cert.Pool

/-- The input's shape, a per-channel vector's and the result's. -/
abbrev SX : Shape := ⟨4, ![64, 256, 128, 128]⟩
abbrev SC : Shape := ⟨1, ![256]⟩
abbrev SP : Shape := ⟨2, ![64, 256]⟩

/-- One entry after the channel's multiplier, the channel's offset and the rectifier. -/
def act (x s h : EReal) : EReal := max (x * s + h) 0

/-- A channel's multiplier: its gain times the reciprocal root of its variance plus the small word. -/
def scaleAt (g v : Ideal .f32) : Ideal .f32 :=
  FloatOps.mulf g (FloatOps.hostUnary .rsqrt (FloatOps.addf v (FloatOps.ofBits .f32 0x3727C5AC#32)))

/-- A channel's offset: its bias minus its multiplier times its mean. -/
def shiftAt (g b mu v : Ideal .f32) : Ideal .f32 :=
  FloatOps.subf b (FloatOps.mulf (scaleAt g v) mu)

/-- Row `r` of row-tile `s`. -/
abbrev trow (s : Fin 16) (r : Fin 8) : Fin 128 := ⟨8 * s.val + r.val, by have := r.isLt; have := s.isLt; omega⟩

/-- The sum of row-tile `s` of plane (b, q): 8 rows of 128 lanes. -/
def tileSum (X : SX.Idx → EReal) (b : Fin 64) (q : Fin 256) (sv hv : EReal) (s : Fin 16) : EReal :=
  ∑ r : Fin 8, ∑ w : Fin 128, act (X (ix4 b q (trow s r) w)) sv hv

/-- The same over every natural `s`, zero past the sixteen tiles. -/
def tileSumN (X : SX.Idx → EReal) (b : Fin 64) (q : Fin 256) (sv hv : EReal) (s : ℕ) : EReal :=
  if h : s < 16 then tileSum X b q sv hv ⟨s, h⟩ else 0

/-- The sum of the whole plane (b, q). -/
def planeSum (X : SX.Idx → EReal) (b : Fin 64) (q : Fin 256) (sv hv : EReal) : EReal :=
  ∑ i : Fin 128, ∑ w : Fin 128, act (X (ix4 b q i w)) sv hv

/-- The sixteen tiles make the plane. -/
theorem tiles_eq_plane (X : SX.Idx → EReal) (b : Fin 64) (q : Fin 256) (sv hv : EReal) :
    ∑ s ∈ Finset.range 16, tileSumN X b q sv hv s = planeSum X b q sv hv := by
  rw [Finset.sum_range]
  unfold planeSum
  rw [Cert.PoolSum.sum_blocks 16 8 rfl]
  refine Finset.sum_congr rfl fun s _ => ?_
  unfold tileSumN
  rw [dif_pos s.isLt]
  rfl

/-- THE RESULT of the pooling stage: the plane's sum, with the channel's multiplier and offset, times 2⁻¹⁴. -/
def pooled (X : SX.Idx → EReal) (g b mu v : SC.Idx → EReal) (i : SP.Idx) : EReal :=
  planeSum X (i 0) (i 1) (scaleAt (g (ix1 (i 1))) (v (ix1 (i 1))))
      (shiftAt (g (ix1 (i 1))) (b (ix1 (i 1))) (mu (ix1 (i 1))) (v (ix1 (i 1))))
    * Ideal.ofBits .f32 0x38800000#32

end Cert.Pool

end
-- ==== Proof.Payload.lean ====
/-
  The body's arithmetic at one entry, on the extended reals.

  One entry of the input block is scaled by its channel's multiplier, shifted by its channel's offset and cut
  below at zero (the specification's `act`). The accumulating payload adds, to entry (p, q) of the table it read, the sum of these
  over the 8 rows and 128 lanes of row (p, q) of the block; the clearing payload is zero everywhere; the scaling
  payload multiplies an entry by the word `0x38800000`.
-/
import proofs.«174536_j41266045780624_1_alg».proof.Proof.Gen.KernelIdeal.Skeleton
import proofs.«174536_j41266045780624_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen Cert.Pool

/-- Row (p, q) of the rank-3 intermediate with lane `r` put back. -/
theorem lift3 (h : S8x256x8.Reduces [2] S8x256) (p : Fin 8) (q : Fin 256) (r : Fin 8) :
    h.lift (ix2 p q) r = ix3 p q r := by
  funext a
  match a with
  | ⟨0, _⟩ => exact Fin.ext rfl
  | ⟨1, _⟩ => exact Fin.ext rfl
  | ⟨2, _⟩ => exact Fin.ext rfl

/-- Row (p, q, r) of the block with lane `w` put back. -/
theorem lift4 (h : S8x256x8x128.Reduces [3] S8x256x8) (p : Fin 8) (q : Fin 256) (r : Fin 8) (w : Fin 128) :
    h.lift (ix3 p q r) w = ix4 p q r w := by
  funext a
  match a with
  | ⟨0, _⟩ => exact Fin.ext rfl
  | ⟨1, _⟩ => exact Fin.ext rfl
  | ⟨2, _⟩ => exact Fin.ext rfl
  | ⟨3, _⟩ => exact Fin.ext rfl

/-- A per-channel [1, 256, 1, 1] table spread over the block reads its channel's entry. -/
theorem spread_apply (x : FVec Ideal S1x256x1x1 .f32) (p : Fin 8) (q : Fin 256) (r : Fin 8) (w : Fin 128) :
    broadcastTo S8x256x8x128 x broadcasts_S1x256x1x1_S8x256x8x128 (ix4 p q r w) = x (ix4 0 q 0 0) :=
  broadcastTo_apply x _ (ix4 p q r w) (ix4 0 q 0 0) (fun a => by
    match a with
    | ⟨0, _⟩ => show (0 : Nat) = if (1 : Nat) = 1 then 0 else p.val; rw [if_pos rfl]
    | ⟨1, _⟩ => show q.val = if (256 : Nat) = 1 then 0 else q.val; rw [if_neg (by decide)]
    | ⟨2, _⟩ => show (0 : Nat) = if (1 : Nat) = 1 then 0 else r.val; rw [if_pos rfl]
    | ⟨3, _⟩ => show (0 : Nat) = if (1 : Nat) = 1 then 0 else w.val; rw [if_pos rfl])

/-- The clearing payload is zero at every entry. -/
theorem pay1_apply (i : S8x256.Idx) : k0_pay1 (F := Ideal) i = 0 := by
  unfold k0_pay1
  simp only [shapeCast_self]
  exact Ideal.ofBits_zero_f32

/-- A sum over the lanes of the block, read at a row. -/
theorem laneSum (v : FVec Ideal S8x256x8x128 .f32) (p : Fin 8) (q : Fin 256) (r : Fin 8) :
    multiReduction .add [3] S8x256x8 v 0x00000000#32 reduces_S8x256x8x128_S8x256x8 (.inl rfl) rfl (ix3 p q r)
      = ∑ w : Fin 128, v (ix4 p q r w) :=
  (Ideal.multiReduction_add_single v 0x00000000#32 reduces_S8x256x8x128_S8x256x8 (.inl rfl) rfl (ix3 p q r)).trans
    (Finset.sum_congr rfl fun w _ => congrArg v (lift4 _ p q r w))

/-- A sum over the 8 rows of a tile, read at an entry of the table. -/
theorem rowSum (v : FVec Ideal S8x256x8 .f32) (p : Fin 8) (q : Fin 256) :
    multiReduction .add [2] S8x256 v 0x00000000#32 reduces_S8x256x8_S8x256 (.inl rfl) rfl (ix2 p q)
      = ∑ r : Fin 8, v (ix3 p q r) :=
  (Ideal.multiReduction_add_single v 0x00000000#32 reduces_S8x256x8_S8x256 (.inl rfl) rfl (ix2 p q)).trans
    (Finset.sum_congr rfl fun r _ => congrArg v (lift3 _ p q r))

/-- The accumulating payload at entry (p, q): the table's entry plus the row's sum. -/
theorem pay2_apply (x0 : FVec Ideal S8x256x8x128 .f32) (x1 x2 : FVec Ideal S1x256x1x1 .f32) (acc : FVec Ideal S8x256 .f32)
    (p : Fin 8) (q : Fin 256) :
    k0_pay2 (F := Ideal) x0 x1 x2 acc (ix2 p q)
      = acc (ix2 p q) + ∑ r : Fin 8, ∑ w : Fin 128, act (x0 (ix4 p q r w)) (x1 (ix4 0 q 0 0)) (x2 (ix4 0 q 0 0)) := by
  unfold k0_pay2
  simp only [shapeCast_self]
  refine congrArg (acc (ix2 p q) + ·) ?_
  refine (rowSum _ p q).trans (Finset.sum_congr rfl fun r _ => (laneSum _ p q r).trans (Finset.sum_congr rfl fun w _ => ?_))
  show max (x0 (ix4 p q r w) * broadcastTo S8x256x8x128 x1 broadcasts_S1x256x1x1_S8x256x8x128 (ix4 p q r w)
      + broadcastTo S8x256x8x128 x2 broadcasts_S1x256x1x1_S8x256x8x128 (ix4 p q r w)) (Ideal.ofBits .f32 0x00000000#32) = _
  rw [spread_apply, spread_apply, Ideal.ofBits_zero_f32]
  rfl

/-- The scaling payload at an entry. -/
theorem pay3_apply (v : FVec Ideal S8x256 .f32) (i : S8x256.Idx) :
    k0_pay3 (F := Ideal) v i = v i * Ideal.ofBits .f32 0x38800000#32 := rfl

end Cert.KernelIdeal.Payload

end
-- ==== Proof.Blocks.lean ====
/-
  What the body's loads see at a grid point, and what the host lines before the region left.

  Point `t` of the 8 × 16 grid works on batch block `t / 16` (8 consecutive batch rows) and on row-tile `t % 16`
  (8 consecutive image rows). So entry (p, q, r, w) of the point's input block is entry
  (8·(t / 16) + p, q, 8·(t % 16) + r, w) of the input array; the two per-channel tables are staged whole, so the
  point's blocks of them are the tables themselves. The tables are the host's: channel `q`'s multiplier is its gain
  times the reciprocal root of (its variance plus the small word), its offset is its bias minus multiplier times
  mean; they are reshaped from [256] to [1, 256, 1, 1], which keeps row-major positions, so entry (0, q, 0, 0) is
  the vectors' entry `q`.
-/
import proofs.«174536_j41266045780624_1_alg».proof.Proof.Gen.KernelIdeal.Frame
import proofs.«174536_j41266045780624_1_alg».proof.Proof.Spec
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Pool

section Reads

variable {F : FTy → Type} [FloatOps F]
variable (m : (ℓ : Loc nD τ sig) → Buf (Elt F) ℓ)

/-- The printed index maps over the grid: the input follows (t / 16, 0, t % 16, 0), the tables stay put, the output
    follows (t / 16, 0). -/
theorem idx_facts : ∀ t : Fin cfg0.N,
    win0_0.index t (0 : Fin 4) = t.val / 16 ∧ win0_0.index t (1 : Fin 4) = 0
    ∧ win0_0.index t (2 : Fin 4) = t.val % 16 ∧ win0_0.index t (3 : Fin 4) = 0
    ∧ win0_1.index t (0 : Fin 4) = 0 ∧ win0_1.index t (1 : Fin 4) = 0
    ∧ win0_1.index t (2 : Fin 4) = 0 ∧ win0_1.index t (3 : Fin 4) = 0
    ∧ win0_2.index t (0 : Fin 4) = 0 ∧ win0_2.index t (1 : Fin 4) = 0
    ∧ win0_2.index t (2 : Fin 4) = 0 ∧ win0_2.index t (3 : Fin 4) = 0
    ∧ win0_3.index t (0 : Fin 2) = t.val / 16 ∧ win0_3.index t (1 : Fin 2) = 0 :=
  (by decide +kernel : ∀ t : Fin grid0.N, _)

/-- A point's number is below 128. -/
theorem lt128 {n : ℕ} (h : n < cfg0.N) : n < 128 := lt_of_lt_of_eq h N_0

/-- Row `p` of the batch block of point `n`. -/
abbrev brow (n : ℕ) (hn : n < 128) (p : Fin 8) : Fin 64 := ⟨8 * (n / 16) + p.val, by have := p.isLt; omega⟩

/-- An entry of the point's input block, in the input array. -/
theorem iblk0_apply (c : Dev nD) (t : Fin cfg0.N) (p : Fin 8) (q : Fin 256) (r : Fin 8) (w : Fin 128) :
    iblk m c 0 t (ix4 p q r w)
      = V m c main_arg0 (ix4 (brow t.val (lt128 t.isLt) p) q (trow ⟨t.val % 16, Nat.mod_lt _ (by decide)⟩ r) w) := by
  obtain ⟨e0, e1, e2, e3, -⟩ := idx_facts t
  unfold iblk
  rw [View.read_apply]
  show V m c main_arg0 (((cfg0.win 0).blk t).view.emb (ix4 p q r w)) = _
  refine congrArg (V m c main_arg0) (funext fun a => Fin.ext ?_)
  match a with
  | ⟨0, _⟩ => show win0_0.index t (0 : Fin 4) * 8 + 1 * p.val = 8 * (t.val / 16) + p.val; omega
  | ⟨1, _⟩ => show win0_0.index t (1 : Fin 4) * 256 + 1 * q.val = q.val; omega
  | ⟨2, _⟩ => show win0_0.index t (2 : Fin 4) * 8 + 1 * r.val = 8 * (t.val % 16) + r.val; omega
  | ⟨3, _⟩ => show win0_0.index t (3 : Fin 4) * 128 + 1 * w.val = w.val; omega

/-- The multiplier table is staged whole. -/
theorem iblk1_apply (c : Dev nD) (t : Fin cfg0.N) (y : S1x256x1x1.Idx) :
    iblk m c 1 t y = V m c main_v7 y := by
  obtain ⟨-, -, -, -, e0, e1, e2, e3, -⟩ := idx_facts t
  unfold iblk
  rw [View.read_apply]
  show V m c main_v7 (((cfg0.win 1).blk t).view.emb y) = _
  refine congrArg (V m c main_v7) (funext fun a => Fin.ext ?_)
  match a with
  | ⟨0, _⟩ => show win0_1.index t (0 : Fin 4) * 1 + 1 * (y 0).val = (y 0).val; omega
  | ⟨1, _⟩ => show win0_1.index t (1 : Fin 4) * 256 + 1 * (y 1).val = (y 1).val; omega
  | ⟨2, _⟩ => show win0_1.index t (2 : Fin 4) * 1 + 1 * (y 2).val = (y 2).val; omega
  | ⟨3, _⟩ => show win0_1.index t (3 : Fin 4) * 1 + 1 * (y 3).val = (y 3).val; omega

/-- The offset table is staged whole. -/
theorem iblk2_apply (c : Dev nD) (t : Fin cfg0.N) (y : S1x256x1x1.Idx) :
    iblk m c 2 t y = V m c main_v8 y := by
  obtain ⟨-, -, -, -, -, -, -, -, e0, e1, e2, e3, -⟩ := idx_facts t
  unfold iblk
  rw [View.read_apply]
  show V m c main_v8 (((cfg0.win 2).blk t).view.emb y) = _
  refine congrArg (V m c main_v8) (funext fun a => Fin.ext ?_)
  match a with
  | ⟨0, _⟩ => show win0_2.index t (0 : Fin 4) * 1 + 1 * (y 0).val = (y 0).val; omega
  | ⟨1, _⟩ => show win0_2.index t (1 : Fin 4) * 256 + 1 * (y 1).val = (y 1).val; omega
  | ⟨2, _⟩ => show win0_2.index t (2 : Fin 4) * 1 + 1 * (y 2).val = (y 2).val; omega
  | ⟨3, _⟩ => show win0_2.index t (3 : Fin 4) * 1 + 1 * (y 3).val = (y 3).val; omega

end Reads

section Tables

variable (m : (ℓ : Loc nD τ sig) → Buf (Elt Ideal) ℓ)

/-- Entry `q` of a [256] vector and entry (0, q, 0, 0) of its [1, 256, 1, 1] reshape sit at one row-major position. -/
theorem pos_eq (q : Fin 256) : (S256.rowMajor (ix1 q)).val = (S1x256x1x1.rowMajor (ix4 0 q 0 0)).val := by
  rw [Shape.rowMajor_val_one, Shape.rowMajor_val_four]
  show q.val = (((0 : Nat) * 256 + q.val) * 1 + 0) * 1 + 0
  omega

/-- The multiplier table the region finds, at a channel. -/
theorem V7_apply (c : Dev nD) (q : Fin 256) :
    V m c main_v7 (ix4 0 q 0 0)
      = scaleAt (m ((c : Thread nD τ).loc main_arg1) (ix1 q)) (m ((c : Thread nD τ).loc main_arg4) (ix1 q)) := by
  have e : (V m c main_v7 : S1x256x1x1.Idx → EReal)
      = shapeCast S1x256x1x1 (mulf (m ((c : Thread nD τ).loc main_arg1)) (Host.rsqrt (addf (m ((c : Thread nD τ).loc main_arg4))
          (broadcastInDim S256 ![] bcast_S_S256 (constant (F := Ideal) S_ .f32 0x3727C5AC#32))))) shapeCasts_S256_S1x256x1x1 := by
    show StableHlo.after hostOps0 (fun b => m (c, b)) (Proc.devRef .tc main_v7) = _
    after_results
    rfl
  rw [e, shapeCast_apply _ _ (ix4 0 q 0 0) (ix1 q) (pos_eq q)]
  rfl

/-- The offset table the region finds, at a channel. -/
theorem V8_apply (c : Dev nD) (q : Fin 256) :
    V m c main_v8 (ix4 0 q 0 0)
      = shiftAt (m ((c : Thread nD τ).loc main_arg1) (ix1 q)) (m ((c : Thread nD τ).loc main_arg2) (ix1 q))
          (m ((c : Thread nD τ).loc main_arg3) (ix1 q)) (m ((c : Thread nD τ).loc main_arg4) (ix1 q)) := by
  have e : (V m c main_v8 : S1x256x1x1.Idx → EReal)
      = shapeCast S1x256x1x1 (subf (m ((c : Thread nD τ).loc main_arg2)) (mulf (mulf (m ((c : Thread nD τ).loc main_arg1)) (Host.rsqrt (addf (m ((c : Thread nD τ).loc main_arg4))
          (broadcastInDim S256 ![] bcast_S_S256 (constant (F := Ideal) S_ .f32 0x3727C5AC#32))))) (m ((c : Thread nD τ).loc main_arg3)))) shapeCasts_S256_S1x256x1x1 := by
    show StableHlo.after hostOps0 (fun b => m (c, b)) (Proc.devRef .tc main_v8) = _
    after_results
    rfl
  rw [e, shapeCast_apply _ _ (ix4 0 q 0 0) (ix1 q) (pos_eq q)]
  rfl

end Tables

end Cert.KernelIdeal.Blocks

end
-- ==== Proof.Accum.lean ====
/-
  The pooled table the region leaves in its result array.

  The scratch table after point `n` holds, at entry (p, q), the sum of row-tiles 0 … n % 16 of channel plane
  (8·(n / 16) + p, q) of the rectified tensor: a first tile starts from the cleared table, every later tile adds to
  what the tile before left — an induction on the point, never an enumeration of the grid. At a last tile
  (n % 16 = 15) the sixteen tiles are there, and the body writes the table times 2⁻¹⁴ into the output block, which
  the pipeline writes back to rows 8·(n / 16) … 8·(n / 16) + 7 of the result. The eight last tiles cover the 64 rows,
  so the result array ends as that table of scaled sums, one function of the arrays the region found.
-/
import proofs.«174536_j41266045780624_1_alg».proof.Proof.Pieces
import proofs.«174536_j41266045780624_1_alg».proof.Proof.Payload
import proofs.«174536_j41266045780624_1_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Pieces Cert.KernelIdeal.Payload Cert.KernelIdeal.Blocks Cert.Pool

variable (m : (ℓ : Loc nD τ sig) → Buf (Elt Ideal) ℓ)

/-- Tile `s` of plane (b, q) of the input as the region finds it, with channel `q`'s entries of the two tables. -/
def tileAt (c : Dev nD) (b : Fin 64) (q : Fin 256) (s : ℕ) : EReal :=
  tileSumN (V m c main_arg0) b q (V m c main_v7 (ix4 0 q 0 0)) (V m c main_v8 (ix4 0 q 0 0)) s

/-- What point `n` adds to entry (p, q) of the table: tile `n % 16` of plane (8·(n / 16) + p, q). -/
theorem step_apply (c : Dev nD) (n : ℕ) (h : n < cfg0.N) (acc : FVec Ideal S8x256 .f32) (p : Fin 8) (q : Fin 256) :
    k0_pay2 (F := Ideal) (iblk m c 0 ⟨n, h⟩) (iblk m c 1 ⟨n, h⟩) (iblk m c 2 ⟨n, h⟩) acc (ix2 p q)
      = acc (ix2 p q) + tileAt m c (brow n (lt128 h) p) q (n % 16) := by
  refine (pay2_apply (iblk m c 0 ⟨n, h⟩) (iblk m c 1 ⟨n, h⟩) (iblk m c 2 ⟨n, h⟩) acc p q).trans ?_
  refine congrArg (acc (ix2 p q) + ·) ?_
  unfold tileAt tileSumN
  rw [dif_pos (Nat.mod_lt _ (by decide))]
  unfold tileSum
  refine Finset.sum_congr rfl fun r _ => Finset.sum_congr rfl fun w _ => ?_
  rw [iblk0_apply m c ⟨n, h⟩ p q r w, iblk1_apply m c ⟨n, h⟩, iblk2_apply m c ⟨n, h⟩]

/-- After a first tile the table is the cleared table plus the tile. -/
theorem table_A (c : Dev nD) (t : Fin cfg0.N) (h0 : t.val % 16 = 0) (h1 : ¬t.val % 16 = 15) :
    (outsAt0 m c t.val t.isLt).2
      = k0_pay2 (iblk m c 0 t) (iblk m c 1 t) (iblk m c 2 t) (k0_pay1 (F := Ideal)) :=
  (congrArg Prod.snd (outsAt0_A m c t h0 h1)).trans
    (sout_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t))

/-- After any later tile it is the table the tile before left plus the tile. -/
theorem table_BC (c : Dev nD) (t : Fin cfg0.N) (h0 : ¬t.val % 16 = 0) :
    (outsAt0 m c t.val t.isLt).2
      = k0_pay2 (iblk m c 0 t) (iblk m c 1 t) (iblk m c 2 t)
          (outsAt0 m c (t.val - 1) (Nat.lt_of_le_of_lt (Nat.sub_le _ _) t.isLt)).2 := by
  by_cases h1 : t.val % 16 = 15
  · exact (congrArg Prod.snd (outsAt0_C m c t h0 h1)).trans
      (sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _)
  · exact (congrArg Prod.snd (outsAt0_B m c t h0 h1)).trans
      (sout_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _)

/-- At a last tile the output block is the new table, scaled. -/
theorem block_C (c : Dev nD) (t : Fin cfg0.N) (h0 : ¬t.val % 16 = 0) (h1 : t.val % 16 = 15) :
    (outsAt0 m c t.val t.isLt).1 = k0_pay3 (outsAt0 m c t.val t.isLt).2 := by
  rw [table_BC m c t h0]
  exact (congrArg Prod.fst (outsAt0_C m c t h0 h1)).trans
    (out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _)

/-- THE RUNNING TABLE: after point `n`, entry (p, q) holds the sum of tiles 0 … n % 16 of plane (8·(n / 16) + p, q) —
    by induction on the point. -/
theorem table_eq (c : Dev nD) : ∀ (n : ℕ) (h : n < cfg0.N) (p : Fin 8) (q : Fin 256),
    (outsAt0 m c n h).2 (ix2 p q) = ∑ s ∈ Finset.range (n % 16 + 1), tileAt m c (brow n (lt128 h) p) q s
  | 0, h, p, q => by
    refine (congrFun (table_A m c ⟨0, h⟩ rfl (by dsimp only; omega)) (ix2 p q)).trans ?_
    refine (step_apply m c 0 h _ p q).trans ?_
    rw [pay1_apply, zero_add]
    exact (Finset.sum_range_one _).symm
  | n + 1, h, p, q => by
    have hN := lt128 h
    by_cases h0 : (n + 1) % 16 = 0
    · refine (congrFun (table_A m c ⟨n + 1, h⟩ h0 (by dsimp only; omega)) (ix2 p q)).trans ?_
      refine (step_apply m c (n + 1) h _ p q).trans ?_
      rw [pay1_apply, zero_add, h0]
      exact (Finset.sum_range_one _).symm
    · refine (congrFun (table_BC m c ⟨n + 1, h⟩ h0) (ix2 p q)).trans ?_
      refine (step_apply m c (n + 1) h _ p q).trans ?_
      have ih := table_eq c n (Nat.lt_of_succ_lt h) p q
      have hk : (n + 1) % 16 = n % 16 + 1 := by omega
      have hb : brow (n + 1) hN p = brow n (lt128 (Nat.lt_of_succ_lt h)) p :=
        Fin.ext (by show 8 * ((n + 1) / 16) + p.val = 8 * (n / 16) + p.val; omega)
      rw [hk, hb, Finset.sum_range_succ, ← ih]
      rfl

/-- The table of averages in the form the run produces it: sixteen tiles, then the scaling word. -/
def tiled (c : Dev nD) (i : S64x256.Idx) : EReal :=
  (∑ s ∈ Finset.range 16, tileAt m c (i 0) (i 1) s) * Ideal.ofBits .f32 0x38800000#32

/-- WHAT A LAST TILE WRITES BACK is its batch block's rows of that table. -/
theorem flushed_eq (c : Dev nD) (t : Fin cfg0.N) (hf : (cfg0.win 3).flush t = true) :
    (dats m 0 c).flushed 3 t = ((cfg0.win 3).blk t).view.read (Elt Ideal) (tiled m c) := by
  have h15 : t.val % 16 = 15 := (flush0_3 t).mp hf
  have h0 : ¬t.val % 16 = 0 := by omega
  obtain ⟨-, -, -, -, -, -, -, -, -, -, -, -, e0, e1⟩ := idx_facts t
  show (cfg0.win 3).cut (grid0.coords t) ((dats m 0 c).after 3 t) = _
  rw [after0_3, block_C m c t h0 h15]
  funext j
  obtain ⟨p, q, rfl⟩ : ∃ (p : Fin 8) (q : Fin 256), j = ix2 p q := ⟨j 0, j 1, eq_ix2 (n0 := 8) (n1 := 256) j⟩
  rw [View.read_apply]
  show k0_pay3 (F := Ideal) (outsAt0 m c t.val t.isLt).2 (ix2 p q) = tiled m c (((cfg0.win 3).blk t).view.emb (ix2 p q))
  have hi : ((cfg0.win 3).blk t).view.emb (ix2 p q) = ix2 (brow t.val (lt128 t.isLt) p) q := by
    funext a
    apply Fin.ext
    match a with
    | ⟨0, _⟩ => show win0_3.index t (0 : Fin 2) * 8 + 1 * p.val = 8 * (t.val / 16) + p.val; omega
    | ⟨1, _⟩ => show win0_3.index t (1 : Fin 2) * 256 + 1 * q.val = q.val; omega
  rw [pay3_apply, table_eq m c t.val t.isLt p q, h15, hi]
  rfl

/-- An index of the result is in point `t`'s block iff each coordinate is in the block's range on its axis. -/
theorem mem_blk (t : Fin cfg0.N) (i : S64x256.Idx) :
    i ∈ ((cfg0.win 3).blk t).view.set ↔ ∀ a : Fin 2, win0_3.index t a * S8x256.size a ≤ (i a).val
      ∧ (i a).val < win0_3.index t a * S8x256.size a + S8x256.size a := by
  show i ∈ ((View.whole main_v9).slice (win0_3.rect t)).set ↔ _
  rw [View.set_slice_whole, Rect.mem_set_unit]
  exact Iff.rfl

/-- Every row of the result is written back by the last tile of its batch block. -/
theorem cover (i : S64x256.Idx) :
    ∃ t : Fin cfg0.N, (cfg0.win 3).flush t = true ∧ i ∈ ((cfg0.win 3).blk t).view.set := by
  have hi0 : (i 0).val < 64 := (i 0).isLt
  have hi1 : (i 1).val < 256 := (i 1).isLt
  have hN : cfg0.N = 128 := N_0
  let t : Fin cfg0.N := ⟨16 * ((i 0).val / 8) + 15, by omega⟩
  have ht : t.val = 16 * ((i 0).val / 8) + 15 := rfl
  obtain ⟨-, -, -, -, -, -, -, -, -, -, -, -, e0, e1⟩ := idx_facts t
  refine ⟨t, (flush0_3 t).mpr (by omega), ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 256 ≤ (i 1).val ∧ (i 1).val < win0_3.index t (1 : Fin 2) * 256 + 256; omega

/-- THE POOLED ARRAY after the region: the table of averages. -/
theorem final (c : Dev nD) : (dats m 0 c).arrAt 3 cfg0.N = tiled m c :=
  (dats m 0 c).arrAt_eq_of_cover 3 (tiled m c) (flushed_eq m c) cover

end Cert.KernelIdeal.Accum

end
-- ==== Proof.KernelRun.lean ====
/-
  The kernel program's run, read: its result is the tail — linear layer, bias, logistic function — of the
  specification's pooled table of the arguments, and the arguments end unchanged.

  The region's result array holds the table of scaled plane sums of the arrays the region found; those are the
  input as launched and the two per-channel tables the host lines before the region computed, whose channel
  entries are the specification's multiplier and offset; sixteen tiles make a plane. The lines after the region
  read that array, the weights and the bias, none of which they or the region overwrite.
-/
import proofs.«174536_j41266045780624_1_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Blocks Cert.KernelIdeal.Accum Cert.Pool

variable (m : (ℓ : Loc nD τ sig) → Buf (Elt Ideal) ℓ) (ρ : Dev nD → PrngReg)

/-- The table the run leaves is the specification's pooled table of the arguments. -/
theorem tiled_eq (c : Dev nD) :
    tiled m c = pooled (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨b, q, rfl⟩ : ∃ (b : Fin 64) (q : Fin 256), i = ix2 b q := ⟨i 0, i 1, eq_ix2 i⟩
  show (∑ s ∈ Finset.range 16, tileSumN (V m c main_arg0) b q (V m c main_v7 (ix4 0 q 0 0)) (V m c main_v8 (ix4 0 q 0 0)) s)
      * Ideal.ofBits .f32 0x38800000#32
    = planeSum (m ((c : Thread nD τ).loc main_arg0)) b q
        (scaleAt (m ((c : Thread nD τ).loc main_arg1) (ix1 q)) (m ((c : Thread nD τ).loc main_arg4) (ix1 q)))
        (shiftAt (m ((c : Thread nD τ).loc main_arg1) (ix1 q)) (m ((c : Thread nD τ).loc main_arg2) (ix1 q))
          (m ((c : Thread nD τ).loc main_arg3) (ix1 q)) (m ((c : Thread nD τ).loc main_arg4) (ix1 q)))
      * Ideal.ofBits .f32 0x38800000#32
  rw [tiles_eq_plane, V7_apply, V8_apply, V_main_arg0]

/-- The lines after the pooling stage, as one function of the pooled table, the weights and the bias: the linear
    layer, its bias spread over the rows, and the logistic function 1 / (1 + exp (−z)). -/
def tail (P : FVec Ideal S64x256 .f32) (W : FVec Ideal S512x256 .f32) (bias : FVec Ideal S512 .f32) :
    FVec Ideal S64x512 .f32 :=
  Host.divf (broadcastInDim S64x512 ![] bcast_S_S64x512 (constant (F := Ideal) S_ .f32 0x3F800000#32))
    (addf (broadcastInDim S64x512 ![] bcast_S_S64x512 (constant (F := Ideal) S_ .f32 0x3F800000#32))
      (Host.exp (Host.negf (addf (Host.dotGeneral dot_S64x256_S512x256_S64x512_1_1_0_0_n_n none P W)
        (broadcastInDim S64x512 ![0, 1] bcast_S1x512_S64x512_0_1
          (broadcastInDim S1x512 ![1] bcast_S512_S1x512_1 bias))))))

/-- What the lines after the region leave in the result buffer. -/
theorem tail_eq (c : Dev nD) :
    Pipeline.afterTail₀ cfgs (dats m) 0 (V0 m) [hostOps1] c main_v19
      = tail (pooled (m ((c : Thread nD τ).loc main_arg0)) (m ((c : Thread nD τ).loc main_arg1))
          (m ((c : Thread nD τ).loc main_arg2)) (m ((c : Thread nD τ).loc main_arg3)) (m ((c : Thread nD τ).loc main_arg4)))
        (m ((c : Thread nD τ).loc main_arg5)) (m ((c : Thread nD τ).loc main_arg6)) := by
  unfold Pipeline.afterTail₀
  show StableHlo.after hostOps1 _ (Proc.devRef .tc main_v19) = _
  after_results
  have e9 : Pipeline.withArrays (cfgs 0).spec c (V0 m c) (fun w => (dats m 0 c).arrAt w (cfgs 0).N) (Proc.devRef .tc main_v9)
      = pooled (m ((c : Thread nD τ).loc main_arg0)) (m ((c : Thread nD τ).loc main_arg1))
          (m ((c : Thread nD τ).loc main_arg2)) (m ((c : Thread nD τ).loc main_arg3)) (m ((c : Thread nD τ).loc main_arg4)) :=
    (Pipeline.withArrays_arr spec0 launch0.win.arr_inj c _ _ 3).trans ((final m c).trans (tiled_eq m c))
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  show tail _ _ _ = _
  rw [e9, e5, e6]

/-- THE RUN: every weakly fair execution terminates with the result at the tail of the pooled table of the
    arguments as launched, and the arguments unchanged. -/
theorem run : θ_run defs (onTc (τ := τ) (main (F := Ideal))) ⟨m, fun _ => 0, ρ⟩ fun r => ∀ c : Dev nD,
      r.2.mem ((c : Thread nD τ).loc main_v19)
        = tail (pooled (m ((c : Thread nD τ).loc main_arg0)) (m ((c : Thread nD τ).loc main_arg1))
            (m ((c : Thread nD τ).loc main_arg2)) (m ((c : Thread nD τ).loc main_arg3)) (m ((c : Thread nD τ).loc main_arg4)))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c =>
    ⟨((h c).2 main_v19 (Pipeline.mem_restRefs_of main_v19 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Tail

end
-- ==== Proof.RefSide.lean ====
/-
  The reference's pooling stage is the specification's `pooled`.

  jnp writes the multiplier and the offset per channel, spreads them over the input, rectifies, sums each
  128 × 128 plane from zero and divides by 16384. Entry by entry the rectified tensor is the specification's `act`
  of the input entry with its channel's multiplier and offset; the sum over the two trailing axes is the double sum over
  the plane; and the quotient by 16384 is the product with 2⁻¹⁴ on every extended real.
-/
import proofs.«174536_j41266045780624_1_alg».proof.Proof.Gen.ReferenceIdeal.Read
import proofs.«174536_j41266045780624_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.Pool

/-- One entry of the rectified tensor. -/
theorem v13_apply (x0 : FVec Ideal S64x256x128x128 .f32) (x1 x2 x3 x4 : FVec Ideal S256 .f32) (b : Fin 64) (q : Fin 256)
    (r w : Fin 128) :
    val_main_v13 (F := Ideal) x0 x1 x2 x3 x4 (ix4 b q r w)
      = act (x0 (ix4 b q r w)) (scaleAt (x1 (ix1 q)) (x4 (ix1 q)))
          (shiftAt (x1 (ix1 q)) (x2 (ix1 q)) (x3 (ix1 q)) (x4 (ix1 q))) := by
  have e1 : idx_main_v4 (idx_main_v9 (ix4 b q r w)) = ix1 q := funext fun a => match a with | ⟨0, _⟩ => rfl
  have e2 : idx_main_v8 (idx_main_v11 (ix4 b q r w)) = ix1 q := funext fun a => match a with | ⟨0, _⟩ => rfl
  simp only [val_main_v13_apply, val_main_v12_apply, val_main_v10_apply, val_main_v9_apply, val_main_v4_apply,
    val_main_v3_apply, val_main_v2_apply, val_main_v1_apply, val_main_v0_apply, val_main_cst_apply, val_main_v11_apply,
    val_main_v8_apply, val_main_v7_apply, val_main_v6_apply, val_main_v5_apply, val_main_call0_v0_apply,
    val_main_call0_cst_apply, e1, e2]
  show max (x0 (ix4 b q r w) * scaleAt (x1 (ix1 q)) (x4 (ix1 q)) + shiftAt (x1 (ix1 q)) (x2 (ix1 q)) (x3 (ix1 q)) (x4 (ix1 q)))
      (Ideal.ofBits .f32 0x00000000#32) = _
  rw [Ideal.ofBits_zero_f32]
  rfl

/-- The reference's pooled array is the specification's. -/
theorem pooled_eq (x0 : FVec Ideal S64x256x128x128 .f32) (x1 x2 x3 x4 : FVec Ideal S256 .f32) :
    val_main_v16 (F := Ideal) x0 x1 x2 x3 x4 = pooled x0 x1 x2 x3 x4 := by
  funext i
  rw [val_main_v16_apply, val_main_v15_apply, val_main_cst_1_apply]
  unfold val_main_v14 Host.reduceAdd
  show Ideal.div (Ideal.hostReduceAdd reducesTo_S64x256x128x128_S64x256_d2_3 (val_main_v13 (F := Ideal) x0 x1 x2 x3 x4)
      (Ideal.ofBits .f32 0x00000000#32) i) (Ideal.ofBits .f32 0x46800000#32) = _
  rw [Cert.PoolConsts.div_16384, Cert.PoolSum.hostReduceAdd_last2, Ideal.ofBits_zero_f32, zero_add]
  unfold pooled planeSum
  refine congrArg (· * Ideal.ofBits .f32 0x38800000#32) ?_
  refine Finset.sum_congr rfl fun r _ => Finset.sum_congr rfl fun w _ => ?_
  exact v13_apply x0 x1 x2 x3 x4 (i 0) (i 1) r w

/-- The lines after the pooling stage, as one function of the pooled table, the weights and the bias: the linear
    layer, its bias spread over the rows, and the logistic function 1 / (1 + exp (−z)). -/
def tail (P : FVec Ideal S64x256 .f32) (W : FVec Ideal S512x256 .f32) (bias : FVec Ideal S512 .f32) :
    FVec Ideal S64x512 .f32 :=
  Host.divf (broadcastInDim S64x512 ![] bcast_S_S64x512 (constant (F := Ideal) S_ .f32 0x3F800000#32))
    (addf (broadcastInDim S64x512 ![] bcast_S_S64x512 (constant (F := Ideal) S_ .f32 0x3F800000#32))
      (Host.exp (Host.negf (addf (Host.dotGeneral dot_S64x256_S512x256_S64x512_1_1_0_0_n_n none P W)
        (broadcastInDim S64x512 ![0, 1] bcast_S1x512_S64x512_0_1
          (broadcastInDim S1x512 ![1] bcast_S512_S1x512_1 bias))))))

/-- The reference's result is that tail of the specification's pooled table. -/
theorem result_eq (x0 : FVec Ideal S64x256x128x128 .f32) (x1 x2 x3 x4 : FVec Ideal S256 .f32)
    (x5 : FVec Ideal S512x256 .f32) (x6 : FVec Ideal S512 .f32) :
    val_main_v26 (F := Ideal) x0 x1 x2 x3 x4 x5 x6 = tail (pooled x0 x1 x2 x3 x4) x5 x6 := by
  rw [← pooled_eq]
  rfl

end Cert.ReferenceIdeal.RefValue

end
-- ==== Proof.lean ====
/-
  Nearest-neighbour upsampling, batch normalisation by running statistics, rectifier, global average pool, linear
  layer and logistic function: the kernel program against its jnp reference, on the extended reals.

  Both programs compute, per batch row b and channel q, the average over the 128 × 128 plane of
  max (x · s + h, 0), with the channel's multiplier s = g · rsqrt (v + ε) and offset h = β − s · μ, and then apply
  the same linear layer, bias and logistic function to the [64, 256] table of averages. They differ in how the
  average is taken. The kernel walks an 8 × 16 grid: at each point it sums an 8-row tile of eight batch rows' planes
  into a running table, cleared at the first tile and scaled by the word 2⁻¹⁴ at the sixteenth; the reference sums a
  whole plane from zero and divides by 16384. The sum of sixteen tiles is the sum of the plane in any grouping,
  because addition of extended reals is commutative and associative, and dividing by 16384 is multiplying by 2⁻¹⁴
  on every extended real, the infinities included: no finiteness of the inputs is used.

  The three frames are the generated ones (the reference's is its generated run with the result dropped); the
  ideal pass rewrote nothing, so the kernel's idealization is its own text; the value of the kernel program is read
  off its frame run (the running table by induction on the grid point), the reference's off its generated run.
-/
import proofs.«174536_j41266045780624_1_alg».proof.Defs
import proofs.«174536_j41266045780624_1_alg».proof.Proof.Gen.Kernel
import proofs.«174536_j41266045780624_1_alg».proof.Proof.Gen.Kernel.Skeleton
import proofs.«174536_j41266045780624_1_alg».proof.Proof.Gen.Kernel.Launch
import proofs.«174536_j41266045780624_1_alg».proof.Proof.Gen.Kernel.Points
import proofs.«174536_j41266045780624_1_alg».proof.Proof.Gen.Kernel.Frame
import proofs.«174536_j41266045780624_1_alg».proof.Proof.Gen.KernelIdeal
import proofs.«174536_j41266045780624_1_alg».proof.Proof.Gen.KernelIdeal.Skeleton
import proofs.«174536_j41266045780624_1_alg».proof.Proof.Gen.KernelIdeal.Launch
import proofs.«174536_j41266045780624_1_alg».proof.Proof.Gen.KernelIdeal.Points
import proofs.«174536_j41266045780624_1_alg».proof.Proof.Gen.KernelIdeal.Frame
import proofs.«174536_j41266045780624_1_alg».proof.Proof.Gen.ReferenceIdeal
import proofs.«174536_j41266045780624_1_alg».proof.Proof.Gen.Pre_finite_inputs
import proofs.«174536_j41266045780624_1_alg».proof.Proof.Gen.ReferenceIdeal.Run
import proofs.«174536_j41266045780624_1_alg».proof.Proof.Gen.ReferenceIdeal.Read
import proofs.«174536_j41266045780624_1_alg».proof.Proof.KernelRun
import proofs.«174536_j41266045780624_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both results are the tail of the pooled table of the arguments: the kernel program's by its run read through the
    frame, the reference's by its generated run; the two tails are one term. -/
theorem algebraic : Cert.algebraic_KernelIdeal_ReferenceIdeal := by
  intro m ρ m' ρ' _ hagree
  refine ⟨fun c => Cert.KernelIdeal.Tail.tail
      (Cert.Pool.pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v26_eq _ _ _ _ _ _ _).trans
    ((Cert.ReferenceIdeal.RefValue.result_eq _ _ _ _ _ _ _).trans rfl)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
